-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1x1024 : Shape := ⟨3, ![32768, 1, 1024]⟩
abbrev S256x1365 : Shape := ⟨2, ![256, 1365]⟩
abbrev S256 : Shape := ⟨1, ![256]⟩
abbrev S1024x256 : Shape := ⟨2, ![1024, 256]⟩
abbrev S1024 : Shape := ⟨1, ![1024]⟩
abbrev S_ : Shape := ⟨0, ![]⟩

class Facts : Prop where
  bcast_S_S32768x1x1024 : S_.BroadcastsInDim S32768x1x1024 (![] : Fin 0 → Fin S32768x1x1024.rank)
  reducesTo_S32768x1x1024_S_d0_1_2 : S32768x1x1024.ReducesTo [0, 1, 2] S_
  h_S_ : 0 < S_.numel
  bcast_S_S256x1365 : S_.BroadcastsInDim S256x1365 (![] : Fin 0 → Fin S256x1365.rank)
  reducesTo_S256x1365_S_d0_1 : S256x1365.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S32768x1x1024 .f32) (main_arg1 : FVec F S256x1365 .f32) (main_arg2 : FVec F S256 .f32) (main_arg3 : FVec F S1024x256 .f32) (main_arg4 : FVec F S1024 .f32) : IVec S_ 1 :=
  let main_v0 : FVec F S32768x1x1024 .f32 := Host.absf main_arg0
  let main_cst : FVec F S_ .f32 := constant S_ .f32 0x7F800000#32
  let main_v1 : FVec F S32768x1x1024 .f32 := broadcastInDim S32768x1x1024 ![] bcast_S_S32768x1x1024 main_cst
  let main_v2 : IVec S32768x1x1024 1 := cmpf .olt main_v0 main_v1
  let main_c : IVec S_ 1 := constantI S_ 1 1#1
  let main_v3 : IVec S_ 1 := (fun x v => Host.reduce IntOp.andi x v reducesTo_S32768x1x1024_S_d0_1_2 h_S_) main_v2 main_c
  let main_v4 : FVec F S256x1365 .f32 := Host.absf main_arg1
  let main_cst_0 : FVec F S_ .f32 := constant S_ .f32 0x7F800000#32
  let main_v5 : FVec F S256x1365 .f32 := broadcastInDim S256x1365 ![] bcast_S_S256x1365 main_cst_0
  let main_v6 : IVec S256x1365 1 := cmpf .olt main_v4 main_v5
  let main_c_1 : IVec S_ 1 := constantI S_ 1 1#1
  let main_v7 : IVec S_ 1 := (fun x v => Host.reduce IntOp.andi x v reducesTo_S256x1365_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_v13 main_v16
-- ==== Kernel.lean ====
abbrev S32768x1x1024 : Shape := ⟨3, ![32768, 1, 1024]⟩
abbrev S256x1365 : Shape := ⟨2, ![256, 1365]⟩
abbrev S256 : Shape := ⟨1, ![256]⟩
abbrev S1024x256 : Shape := ⟨2, ![1024, 256]⟩
abbrev S1024 : Shape := ⟨1, ![1024]⟩
abbrev S1365x256 : Shape := ⟨2, ![1365, 256]⟩
abbrev S256x1024 : Shape := ⟨2, ![256, 1024]⟩
abbrev S32768x1024 : Shape := ⟨2, ![32768, 1024]⟩
abbrev S1024x1x1024 : Shape := ⟨3, ![1024, 1, 1024]⟩
abbrev S1024x1024 : Shape := ⟨2, ![1024, 1024]⟩
abbrev S1024x512x2 : Shape := ⟨3, ![1024, 512, 2]⟩
abbrev S1024x512 : Shape := ⟨2, ![1024, 512]⟩
abbrev S1024x1023 : Shape := ⟨2, ![1024, 1023]⟩
abbrev S1024x341x3 : Shape := ⟨3, ![1024, 341, 3]⟩
abbrev S1024x341 : Shape := ⟨2, ![1024, 341]⟩
abbrev S1024x1365 : Shape := ⟨2, ![1024, 1365]⟩
abbrev S1x256 : Shape := ⟨2, ![1, 256]⟩
abbrev S1x1024 : Shape := ⟨2, ![1, 1024]⟩

abbrev nBuf : Space → Nat
  | .hbm => 12
  | .vmem => 8
  | .smem => 0
  | _ => 0

abbrev bufTy : (tb : Table) → Fin (tcTables nBuf tb) → BufTy
  | .hbm, ⟨0, _⟩ => ⟨S32768x1x1024, .f32⟩
  | .hbm, ⟨1, _⟩ => ⟨S256x1365, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S1365x256, .f32⟩
  | .hbm, ⟨6, _⟩ => ⟨S1365x256, .bf16⟩
  | .hbm, ⟨7, _⟩ => ⟨S256x1024, .f32⟩
  | .hbm, ⟨8, _⟩ => ⟨S256x1024, .bf16⟩
  | .hbm, ⟨9, _⟩ => ⟨S32768x1024, .f32⟩
  | .hbm, ⟨10, _⟩ => ⟨S32768x1x1024, .f32⟩
  | .hbm, ⟨11, _⟩ => ⟨S32768x1024, .f32⟩
  | .local _ .vmem, ⟨0, _⟩ => ⟨S1024x1x1024, .f32⟩
  | .local _ .vmem, ⟨1, _⟩ => ⟨S1024x1x1024, .f32⟩
  | .local _ .vmem, ⟨2, _⟩ => ⟨S1365x256, .bf16⟩
  | .local _ .vmem, ⟨3, _⟩ => ⟨S256, .f32⟩
  | .local _ .vmem, ⟨4, _⟩ => ⟨S256x1024, .bf16⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | _, _ => ⟨S32768x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1365x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x1365_S1365x256_1_0 : S256x1365.Transposes [1, 0] S1365x256
  bitsLt_bf16_f32 : FTy.bits .bf16 < FTy.bits .f32
  transposes_S1024x256_S256x1024_1_0 : S1024x256.Transposes [1, 0] S256x1024
  inb_S1024x1x1024_S1024x1x1024_0_0_0 : ∀ a, (![0, 0, 0] : Fin 3 → Nat) a + S1024x1x1024.size a ≤ S1024x1x1024.size a
  h_S1024x1x1024 : 0 < S1024x1x1024.numel
  shapeCasts_S1024x1x1024_S1024x1024 : S1024x1x1024.ShapeCasts S1024x1024
  shapeCasts_S1024x1024_S1024x512x2 : S1024x1024.ShapeCasts S1024x512x2
  reduces_S1024x512x2_S1024x512 : S1024x512x2.Reduces [2] S1024x512
  slices_S1024x1024_o0_0_S1024x1023 : S1024x1024.Slices ![0, 0] S1024x1023
  shapeCasts_S1024x1023_S1024x341x3 : S1024x1023.ShapeCasts S1024x341x3
  reduces_S1024x341x3_S1024x341 : S1024x341x3.Reduces [2] S1024x341
  slices_S1024x1024_o0_0_S1024x341 : S1024x1024.Slices ![0, 0] S1024x341
  slices_S1024x512_o0_0_S1024x341 : S1024x512.Slices ![0, 0] S1024x341
  concatenates_S1024x1024_S1024x341_S1024x1365_d1 : Shape.Concatenates [S1024x1024, S1024x341] S1024x1365 1
  inb_S1365x256_S1365x256_0_0 : ∀ a, (![0, 0] : Fin 2 → Nat) a + S1365x256.size a ≤ S1365x256.size a
  h_S1365x256 : 0 < S1365x256.numel
  shapeCasts_S1365x256_S1365x256 : S1365x256.ShapeCasts S1365x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  bcast_S32768x1024_S32768x1x1024_0_2 : S32768x1024.BroadcastsInDim S32768x1x1024 (![0, 2] : Fin 2 → Fin S32768x1x1024.rank)
  shapeCasts_S32768x1x1024_S32768x1024 : S32768x1x1024.ShapeCasts S32768x1024
  dot_S1024x1365_S1365x256_S1024x256_1_0_0_1_n_n_wf : DotDims.WF S1024x1365 S1365x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1x1024.size a ≤ S32768x1x1024.size a
  hwx0_0 : ∀ i : grid0.Coords, EltTy.bits .f32 = 32 ∨ (Rect.block (s := S32768x1x1024) S1024x1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1365x256.size a ≤ S1365x256.size a
  hwx0_1 : ∀ i : grid0.Coords, EltTy.bits .bf16 = 32 ∨ (Rect.block (s := S1365x256) S1365x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S32768x1024.size a
  hwx0_5 : ∀ i : grid0.Coords, EltTy.bits .f32 = 32 ∨ (Rect.block (s := S32768x1024) S1024x1024.size (cc0_transform_5 i) (hinb0_5 i)).WholeWords (EltTy.packing .f32)

variable [Facts₀]

def dot_S1024x1365_S1365x256_S1024x256_1_0_0_1_n_n : DotDims S1024x1365 S1365x256 S1024x256 where
  lhsContracting := [1]
  rhsContracting := [0]
  lhsNonContracting := [0]
  rhsNonContracting := [1]
  lhsBatch := []
  rhsBatch := []
  wf := dot_S1024x1365_S1365x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1365x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x1x1024 : Shape := ⟨3, ![32768, 1, 1024]⟩
abbrev S256x1365 : Shape := ⟨2, ![256, 1365]⟩
abbrev S256 : Shape := ⟨1, ![256]⟩
abbrev S1024x256 : Shape := ⟨2, ![1024, 256]⟩
abbrev S1024 : Shape := ⟨1, ![1024]⟩
abbrev S32768x1024 : Shape := ⟨2, ![32768, 1024]⟩
abbrev S32768x512x2 : Shape := ⟨3, ![32768, 512, 2]⟩
abbrev S_ : Shape := ⟨0, ![]⟩
abbrev S32768x512 : Shape := ⟨2, ![32768, 512]⟩
abbrev S32768x1023 : Shape := ⟨2, ![32768, 1023]⟩
abbrev S32768x341x3 : Shape := ⟨3, ![32768, 341, 3]⟩
abbrev S32768x341 : Shape := ⟨2, ![32768, 341]⟩
abbrev S32768x1365 : Shape := ⟨2, ![32768, 1365]⟩
abbrev S1365x256 : Shape := ⟨2, ![1365, 256]⟩
abbrev S32768x256 : Shape := ⟨2, ![32768, 256]⟩
abbrev S1x256 : Shape := ⟨2, ![1, 256]⟩
abbrev S256x1024 : Shape := ⟨2, ![256, 1024]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S32768x1x1024, .f32⟩
  | .hbm, ⟨1, _⟩ => ⟨S256x1365, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S32768x1024, .f32⟩
  | .hbm, ⟨6, _⟩ => ⟨S32768x512x2, .f32⟩
  | .hbm, ⟨7, _⟩ => ⟨S_, .f32⟩
  | .hbm, ⟨8, _⟩ => ⟨S32768x512, .f32⟩
  | .hbm, ⟨9, _⟩ => ⟨S_, .f32⟩
  | .hbm, ⟨10, _⟩ => ⟨S32768x512, .f32⟩
  | .hbm, ⟨11, _⟩ => ⟨S32768x512, .f32⟩
  | .hbm, ⟨12, _⟩ => ⟨S32768x1023, .f32⟩
  | .hbm, ⟨13, _⟩ => ⟨S32768x341x3, .f32⟩
  | .hbm, ⟨14, _⟩ => ⟨S_, .f32⟩
  | .hbm, ⟨15, _⟩ => ⟨S32768x341, .f32⟩
  | .hbm, ⟨16, _⟩ => ⟨S_, .f32⟩
  | .hbm, ⟨17, _⟩ => ⟨S32768x341, .f32⟩
  | .hbm, ⟨18, _⟩ => ⟨S32768x341, .f32⟩
  | .hbm, ⟨19, _⟩ => ⟨S32768x341, .f32⟩
  | .hbm, ⟨20, _⟩ => ⟨S32768x341, .f32⟩
  | .hbm, ⟨21, _⟩ => ⟨S32768x341, .f32⟩
  | .hbm, ⟨22, _⟩ => ⟨S32768x341, .f32⟩
  | .hbm, ⟨23, _⟩ => ⟨S32768x1365, .f32⟩
  | .hbm, ⟨24, _⟩ => ⟨S1365x256, .f32⟩
  | .hbm, ⟨25, _⟩ => ⟨S32768x256, .f32⟩
  | .hbm, ⟨26, _⟩ => ⟨S1x256, .f32⟩
  | .hbm, ⟨27, _⟩ => ⟨S32768x256, .f32⟩
  | .hbm, ⟨28, _⟩ => ⟨S32768x256, .f32⟩
  | .hbm, ⟨29, _⟩ => ⟨S_, .f32⟩
  | .hbm, ⟨30, _⟩ => ⟨S32768x256, .f32⟩
  | .hbm, ⟨31, _⟩ => ⟨S32768x256, .f32⟩
  | .hbm, ⟨32, _⟩ => ⟨S256x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S32768x1x1024, .f32⟩
  | _, _ => ⟨S32768x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  shapeCasts_S32768x1x1024_S32768x1024 : S32768x1x1024.ShapeCasts S32768x1024
  shapeCasts_S32768x1024_S32768x512x2 : S32768x1024.ShapeCasts S32768x512x2
  reducesTo_S32768x512x2_S32768x512_d2 : S32768x512x2.ReducesTo [2] S32768x512
  h_S_ : 0 < S_.numel
  bcast_S_S32768x512 : S_.BroadcastsInDim S32768x512 (![] : Fin 0 → Fin S32768x512.rank)
  slices_S32768x1024_S32768x1023_0_0 : S32768x1024.Slices ![0, 0] S32768x1023
  shapeCasts_S32768x1023_S32768x341x3 : S32768x1023.ShapeCasts S32768x341x3
  reducesTo_S32768x341x3_S32768x341_d2 : S32768x341x3.ReducesTo [2] S32768x341
  bcast_S_S32768x341 : S_.BroadcastsInDim S32768x341 (![] : Fin 0 → Fin S32768x341.rank)
  slices_S32768x1024_S32768x341_0_0 : S32768x1024.Slices ![0, 0] S32768x341
  slices_S32768x512_S32768x341_0_0 : S32768x512.Slices ![0, 0] S32768x341
  concatenates_S32768x1024_S32768x341_S32768x1365_d1 : Shape.Concatenates [S32768x1024, S32768x341] S32768x1365 1
  transposes_S256x1365_S1365x256_1_0 : S256x1365.Transposes [1, 0] S1365x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S32768x1024_S32768x1x1024_0_2 : S32768x1024.BroadcastsInDim S32768x1x1024 (![0, 2] : Fin 2 → Fin S32768x1x1024.rank)
  dot_S32768x1365_S1365x256_S32768x256_1_0_0_1_n_n_wf : DotDims.WF S32768x1365 S1365x256 S32768x256 [1] [0] [0] [1] [] []
  dot_S32768x256_S256x1024_S32768x1024_1_0_0_1_n_n_wf : DotDims.WF S32768x256 S256x1024 S32768x1024 [1] [0] [0] [1] [] []

variable [Facts₀]

def dot_S32768x1365_S1365x256_S32768x256_1_0_0_1_n_n : DotDims S32768x1365 S1365x256 S32768x256 where
  lhsContracting := [1]
  rhsContracting := [0]
  lhsNonContracting := [0]
  rhsNonContracting := [1]
  lhsBatch := []
  rhsBatch := []
  wf := dot_S32768x1365_S1365x256_S32768x256_1_0_0_1_n_n_wf
def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf

class Facts : Prop extends Facts₀ where

variable [Facts]
-- ==== Proof.LibJoinColumns.lean ====
/-
  Two matrices with the same number of rows joined side by side, read at an entry.

  A concatenation along the column axis of an `[R, a]` matrix and an `[R, b]` matrix into an `[R, n]` one reads, at
  `(r, k')`, the first matrix at `(r, k)` when `k' = k` is one of its `a` columns, and the second at `(r, k)` when
  `k' = a + k`. Any extents and element type; imports only the library.
-/
import Idealize.ShloMosaic.Lib.Pipeline.Value
import Idealize.ShloMosaic.Lib.ValueIdx

namespace Idealize.ShloMosaic.JoinColumns

open Idealize.ShloMosaic Idealize.ShloMosaic.ValueIdx

variable {α : Type}

/-- A column of the first matrix. -/
theorem left_apply {R a b n : ℕ} (x : (⟨2, ![R, a]⟩ : Shape).Idx → α) (y : (⟨2, ![R, b]⟩ : Shape).Idx → α)
    (h : Shape.Concatenates [(⟨2, ![R, a]⟩ : Shape), ⟨2, ![R, b]⟩] ⟨2, ![R, n]⟩ (1 : Fin 2))
    (r : Fin R) (k : Fin a) (k' : Fin n) (hk : k'.val = k.val) :
    concatenate ⟨2, ![R, n]⟩ (1 : Fin 2) [⟨⟨2, ![R, a]⟩, x⟩, ⟨⟨2, ![R, b]⟩, y⟩] h (ix2 r k') = x (ix2 r k) :=
  concatenate_pair_apply_left (1 : Fin 2) x y h (ix2 r k') rfl (ix2 r k) (fun c => match c with
    | ⟨0, _⟩ => rfl
    | ⟨1, _⟩ => hk.symm)

/-- A column of the second matrix. -/
theorem right_apply {R a b n : ℕ} (x : (⟨2, ![R, a]⟩ : Shape).Idx → α) (y : (⟨2, ![R, b]⟩ : Shape).Idx → α)
    (h : Shape.Concatenates [(⟨2, ![R, a]⟩ : Shape), ⟨2, ![R, b]⟩] ⟨2, ![R, n]⟩ (1 : Fin 2))
    (r : Fin R) (k : Fin b) (k' : Fin n) (hk : k'.val = a + k.val) :
    concatenate ⟨2, ![R, n]⟩ (1 : Fin 2) [⟨⟨2, ![R, a]⟩, x⟩, ⟨⟨2, ![R, b]⟩, y⟩] h (ix2 r k') = y (ix2 r k) :=
  concatenate_pair_apply_right (1 : Fin 2) x y h (ix2 r k') rfl rfl (ix2 r k)
    (fun c hc => match c, hc with
      | ⟨0, _⟩, _ => rfl
      | ⟨1, _⟩, hc => absurd rfl hc)
    (by show k.val + a = k'.val; omega)

end Idealize.ShloMosaic.JoinColumns
-- ==== Proof.LibPooledFeatures.lean ====
/-
  Multi-scale average pooling of the rows of a matrix, as an array of features.

  A row `h` of length 1024 is pooled at three scales: itself, the means of its 512 consecutive pairs, and the means of
  the 341 consecutive triples of its first 1023 entries. The row's 1365 features are the row itself followed by the 341
  sums `(h n + mean₂ n) + mean₃ n` of the three scales' first 341 entries. On the extended reals a mean is the plain sum
  of the group divided by the group's size, the size being the f32 word of 2 or of 3 on both sides (the same word on both
  sides is never evaluated), and a sum has no order.

  Two spellings compute the `[R, 1365]` feature array of an `[R, 1, 1024]` array, for any number of rows `R`:
    * a kernel's: the unit axis cast away, the row regrouped by shape casts into pairs and (after cutting the last
      entry) triples, a lane reduction over the group axis from the zero word, a division by a splat, unit-stride cuts
      of the first 341 columns, two additions and a concatenation along the columns;
    * the host's: the same layout operations, a `reduce` with an add body from a scalar zero and a `divide` by a
      broadcast scalar.
  A row of the features reads only the same row of the input (`pooled_row`).
-/
import Idealize.ShloMosaic.Lib.Pipeline.Value
import Idealize.ShloMosaic.Lib.ValueIdx
import Idealize.ShloMosaic.PureOps.Ideal.Laws
import proofs.«126937_j8933531976323_1_alg».proof.Proof.LibJoinColumns

noncomputable section

namespace Idealize.ShloMosaic.PooledFeatures

open Idealize.ShloMosaic Idealize.ShloMosaic.ValueIdx

variable {R : ℕ}

/-- The 1365 features of one row `h` of length 1024: entry `j < 1024` is `h j`; entry `1024 + n` is
    `(h n + (h (2n) + h (2n+1)) / 2) + (h (3n) + h (3n+1) + h (3n+2)) / 3`, the divisors the f32 words of 2 and 3. -/
def row (h : Fin 1024 → EReal) (j : Fin 1365) : EReal :=
  if hj : j.val < 1024 then h ⟨j.val, hj⟩
  else
    (h ⟨j.val - 1024, by have := j.isLt; omega⟩
      + Ideal.div (∑ k : Fin 2, h ⟨2 * (j.val - 1024) + k.val, by have := j.isLt; have := k.isLt; omega⟩)
          (Ideal.ofBits .f32 0x40000000#32))
    + Ideal.div (∑ k : Fin 3, h ⟨3 * (j.val - 1024) + k.val, by have := j.isLt; have := k.isLt; omega⟩)
        (Ideal.ofBits .f32 0x40400000#32)

/-- The `[R, 1365]` feature array of an `[R, 1, 1024]` array: row `r` is `row` of the input's row `r`. -/
def pooled (x : FVec Ideal ⟨3, ![R, 1, 1024]⟩ .f32) : FVec Ideal ⟨2, ![R, 1365]⟩ .f32 :=
  fun i => row (fun c => x (ix3 (i 0) (0 : Fin 1) c)) (i 1)

/-- The feature array read at coordinates. -/
theorem pooled_apply (x : FVec Ideal ⟨3, ![R, 1, 1024]⟩ .f32) (r : Fin R) (j : Fin 1365) :
    pooled x (ix2 r j) = row (fun c => x (ix3 r (0 : Fin 1) c)) j := rfl

/-- Row `r'` of the features of `x'` is row `r` of the features of `x` as soon as the two input rows agree. -/
theorem pooled_row {R' : ℕ} (x : FVec Ideal ⟨3, ![R, 1, 1024]⟩ .f32) (x' : FVec Ideal ⟨3, ![R', 1, 1024]⟩ .f32)
    (r : Fin R) (r' : Fin R') (j : Fin 1365)
    (h : ∀ c : Fin 1024, x' (ix3 r' (0 : Fin 1) c) = x (ix3 r (0 : Fin 1) c)) :
    pooled x' (ix2 r' j) = pooled x (ix2 r j) := by
  rw [pooled_apply, pooled_apply]
  exact congrArg (fun f => row f j) (funext h)

/-! ### The layout operations read at an entry -/

section Reads
variable {α : Type}

/-- The unit axis cast away: entry `(r, c)` of the matrix is entry `(r, 0, c)` of the array. -/
private theorem squeeze_apply (x : (⟨3, ![R, 1, 1024]⟩ : Shape).Idx → α)
    (hsq : (⟨3, ![R, 1, 1024]⟩ : Shape).ShapeCasts ⟨2, ![R, 1024]⟩) (r : Fin R) (c : Fin 1024) :
    shapeCast ⟨2, ![R, 1024]⟩ x hsq (ix2 r c) = x (ix3 r (0 : Fin 1) c) :=
  shapeCast_apply x hsq (ix2 r c) (ix3 r (0 : Fin 1) c) (by
    rw [Shape.rowMajor_val_three, Shape.rowMajor_val_two]
    show (r.val * 1 + 0) * 1024 + c.val = r.val * 1024 + c.val
    omega)

/-- A row of 1024 regrouped into 512 pairs: entry `k` of pair `n` is entry `2n + k` of the row. -/
private theorem pairs_apply (y : (⟨2, ![R, 1024]⟩ : Shape).Idx → α)
    (hp2 : (⟨2, ![R, 1024]⟩ : Shape).ShapeCasts ⟨3, ![R, 512, 2]⟩) (r : Fin R) (n : Fin 512) (k : Fin 2)
    (c : Fin 1024) (hc : c.val = 2 * n.val + k.val) :
    shapeCast ⟨3, ![R, 512, 2]⟩ y hp2 (ix3 r n k) = y (ix2 r c) :=
  shapeCast_apply y hp2 (ix3 r n k) (ix2 r c) (by
    rw [Shape.rowMajor_val_three, Shape.rowMajor_val_two]
    show r.val * 1024 + c.val = (r.val * 512 + n.val) * 2 + k.val
    omega)

/-- A row of 1023 regrouped into 341 triples: entry `k` of triple `n` is entry `3n + k` of the row. -/
private theorem triples_apply (z : (⟨2, ![R, 1023]⟩ : Shape).Idx → α)
    (hp3 : (⟨2, ![R, 1023]⟩ : Shape).ShapeCasts ⟨3, ![R, 341, 3]⟩) (r : Fin R) (n : Fin 341) (k : Fin 3)
    (c : Fin 1023) (hc : c.val = 3 * n.val + k.val) :
    shapeCast ⟨3, ![R, 341, 3]⟩ z hp3 (ix3 r n k) = z (ix2 r c) :=
  shapeCast_apply z hp3 (ix3 r n k) (ix2 r c) (by
    rw [Shape.rowMajor_val_three, Shape.rowMajor_val_two]
    show r.val * 1023 + c.val = (r.val * 341 + n.val) * 3 + k.val
    omega)

/-- The first `b` columns cut out of `a` columns: entry `(r, n)` of the cut is entry `(r, n)` of the matrix. -/
private theorem prefix_apply {a b : ℕ} (y : (⟨2, ![R, a]⟩ : Shape).Idx → α)
    (h : (⟨2, ![R, a]⟩ : Shape).Slices ![0, 0] ⟨2, ![R, b]⟩) (r : Fin R) (n : Fin b) (c : Fin a)
    (hc : c.val = n.val) :
    extractStridedSlice ⟨2, ![R, b]⟩ ![0, 0] y h (ix2 r n) = y (ix2 r c) :=
  extractStridedSlice_apply ![0, 0] y h (ix2 r n) (ix2 r c) (fun d => match d with
    | ⟨0, _⟩ => by show r.val = 0 + r.val; omega
    | ⟨1, _⟩ => by show c.val = 0 + n.val; omega)

end Reads

/-! ### The sum over the group axis, and the mean -/

/-- The inserted coordinate of a reduction over the last of three axes. -/
private theorem lift_last {m g : ℕ} (hr : (⟨3, ![R, m, g]⟩ : Shape).Reduces [2] ⟨2, ![R, m]⟩)
    (r : Fin R) (n : Fin m) (k : Fin g) : hr.lift (ix2 r n) k = ix3 r n k :=
  funext fun d => Fin.ext (by match d with | ⟨0, _⟩ => rfl | ⟨1, _⟩ => rfl | ⟨2, _⟩ => rfl)

/-- A kernel's lane reduction over the group axis from the zero word is the sum of the group. -/
private theorem sumLast_kernel {m g : ℕ} (src : FVec Ideal ⟨3, ![R, m, g]⟩ .f32)
    (hr : (⟨3, ![R, m, g]⟩ : Shape).Reduces [2] ⟨2, ![R, m]⟩) (hφ : FKind.Formats .f32)
    (hacc : (0x00000000#32 : BitVec (FTy.bits .f32)) = FKind.add.neutral .f32 hφ) (r : Fin R) (n : Fin m) :
    multiReduction .add [2] ⟨2, ![R, m]⟩ src 0x00000000#32 hr hφ hacc (ix2 r n) = ∑ k : Fin g, src (ix3 r n k) :=
  (Ideal.multiReduction_add_single src _ hr hφ hacc (ix2 r n)).trans
    (Finset.sum_congr rfl fun k _ => congrArg src (lift_last hr r n k))

/-- The host's `reduce` with an add body from the scalar zero is the sum of the group. -/
private theorem sumLast_host {m g : ℕ} (src : FVec Ideal ⟨3, ![R, m, g]⟩ .f32)
    (hrt : (⟨3, ![R, m, g]⟩ : Shape).ReducesTo [2] ⟨2, ![R, m]⟩)
    (hr : (⟨3, ![R, m, g]⟩ : Shape).Reduces [2] ⟨2, ![R, m]⟩)
    (hu : 0 < (⟨0, ![]⟩ : Shape).numel) (r : Fin R) (n : Fin m) :
    Host.reduceAdd src (constant (F := Ideal) ⟨0, ![]⟩ .f32 0x00000000#32) hrt hu (ix2 r n)
      = ∑ k : Fin g, src (ix3 r n k) := by
  show Ideal.hostReduceAdd hrt src (Ideal.ofBits .f32 0x00000000#32) (ix2 r n) = _
  rw [Ideal.hostReduceAdd_single hrt hr, Ideal.ofBits_zero_f32, zero_add]
  exact Finset.sum_congr rfl fun k _ => congrArg src (lift_last hr r n k)

/-- A kernel's mean: the group's sum divided by the splat of the word `w`. -/
private theorem mean_kernel {m g : ℕ} (src : FVec Ideal ⟨3, ![R, m, g]⟩ .f32)
    (hr : (⟨3, ![R, m, g]⟩ : Shape).Reduces [2] ⟨2, ![R, m]⟩) (hφ : FKind.Formats .f32)
    (hacc : (0x00000000#32 : BitVec (FTy.bits .f32)) = FKind.add.neutral .f32 hφ) (w : BitVec (FTy.bits .f32))
    (r : Fin R) (n : Fin m) :
    divf (multiReduction .add [2] ⟨2, ![R, m]⟩ src 0x00000000#32 hr hφ hacc)
        (broadcast ⟨2, ![R, m]⟩ (Scalar.ofBits .f32 w)) (ix2 r n)
      = Ideal.div (∑ k : Fin g, src (ix3 r n k)) (Ideal.ofBits .f32 w) :=
  congrArg (fun s => Ideal.div s (Ideal.ofBits .f32 w)) (sumLast_kernel src hr hφ hacc r n)

/-- The host's mean: the group's sum divided by the broadcast scalar of the word `w`. -/
private theorem mean_host {m g : ℕ} (src : FVec Ideal ⟨3, ![R, m, g]⟩ .f32)
    (hrt : (⟨3, ![R, m, g]⟩ : Shape).ReducesTo [2] ⟨2, ![R, m]⟩)
    (hr : (⟨3, ![R, m, g]⟩ : Shape).Reduces [2] ⟨2, ![R, m]⟩)
    (hu : 0 < (⟨0, ![]⟩ : Shape).numel)
    (hb : (⟨0, ![]⟩ : Shape).BroadcastsInDim ⟨2, ![R, m]⟩ (![] : Fin 0 → Fin 2)) (w : BitVec (FTy.bits .f32))
    (r : Fin R) (n : Fin m) :
    Host.divf (Host.reduceAdd src (constant (F := Ideal) ⟨0, ![]⟩ .f32 0x00000000#32) hrt hu)
        (broadcastInDim ⟨2, ![R, m]⟩ ![] hb (constant (F := Ideal) ⟨0, ![]⟩ .f32 w)) (ix2 r n)
      = Ideal.div (∑ k : Fin g, src (ix3 r n k)) (Ideal.ofBits .f32 w) :=
  congrArg₂ Ideal.div (sumLast_host src hrt hr hu r n)
    (broadcastInDim_apply ![] hb (constant (F := Ideal) ⟨0, ![]⟩ .f32 w) (ix2 r n) ix0 fun ax => ax.elim0)

/-! ### The three scales read at an entry of the input -/

section Scales
variable {α : Type}

/-- The first 341 columns of the row: entry `n` is `h n`. -/
private theorem first_apply (x : (⟨3, ![R, 1, 1024]⟩ : Shape).Idx → α)
    (hsq : (⟨3, ![R, 1, 1024]⟩ : Shape).ShapeCasts ⟨2, ![R, 1024]⟩)
    (hs1 : (⟨2, ![R, 1024]⟩ : Shape).Slices ![0, 0] ⟨2, ![R, 341]⟩) (r : Fin R) (n : Fin 341) :
    extractStridedSlice ⟨2, ![R, 341]⟩ ![0, 0] (shapeCast ⟨2, ![R, 1024]⟩ x hsq) hs1 (ix2 r n)
      = x (ix3 r (0 : Fin 1) ⟨n.val, by have := n.isLt; omega⟩) :=
  (prefix_apply _ hs1 r n ⟨n.val, by have := n.isLt; omega⟩ rfl).trans (squeeze_apply x hsq r _)

/-- Entry `k` of pair `n` of the row is `h (2n + k)`. -/
private theorem pair_entry (x : (⟨3, ![R, 1, 1024]⟩ : Shape).Idx → α)
    (hsq : (⟨3, ![R, 1, 1024]⟩ : Shape).ShapeCasts ⟨2, ![R, 1024]⟩)
    (hp2 : (⟨2, ![R, 1024]⟩ : Shape).ShapeCasts ⟨3, ![R, 512, 2]⟩) (r : Fin R) (n : Fin 512) (k : Fin 2) :
    shapeCast ⟨3, ![R, 512, 2]⟩ (shapeCast ⟨2, ![R, 1024]⟩ x hsq) hp2 (ix3 r n k)
      = x (ix3 r (0 : Fin 1) ⟨2 * n.val + k.val, by have := n.isLt; have := k.isLt; omega⟩) :=
  (pairs_apply _ hp2 r n k ⟨2 * n.val + k.val, by have := n.isLt; have := k.isLt; omega⟩ rfl).trans
    (squeeze_apply x hsq r _)

/-- Entry `k` of triple `n` of the row's first 1023 entries is `h (3n + k)`. -/
private theorem triple_entry (x : (⟨3, ![R, 1, 1024]⟩ : Shape).Idx → α)
    (hsq : (⟨3, ![R, 1, 1024]⟩ : Shape).ShapeCasts ⟨2, ![R, 1024]⟩)
    (hs3 : (⟨2, ![R, 1024]⟩ : Shape).Slices ![0, 0] ⟨2, ![R, 1023]⟩)
    (hp3 : (⟨2, ![R, 1023]⟩ : Shape).ShapeCasts ⟨3, ![R, 341, 3]⟩) (r : Fin R) (n : Fin 341) (k : Fin 3) :
    shapeCast ⟨3, ![R, 341, 3]⟩
        (extractStridedSlice ⟨2, ![R, 1023]⟩ ![0, 0] (shapeCast ⟨2, ![R, 1024]⟩ x hsq) hs3) hp3 (ix3 r n k)
      = x (ix3 r (0 : Fin 1) ⟨3 * n.val + k.val, by have := n.isLt; have := k.isLt; omega⟩) :=
  (triples_apply _ hp3 r n k ⟨3 * n.val + k.val, by have := n.isLt; have := k.isLt; omega⟩ rfl).trans
    ((prefix_apply _ hs3 r _ ⟨3 * n.val + k.val, by have := n.isLt; have := k.isLt; omega⟩ rfl).trans
      (squeeze_apply x hsq r _))

end Scales

/-- The features' entry `1024 + n` from the three scales' entries `n`, the means written as sums of entries of the
    input row divided by the two words. -/
private theorem row_tail (h : Fin 1024 → EReal) (j : Fin 1365) (hj : ¬ j.val < 1024) (a b c : EReal)
    (ha : a = h ⟨j.val - 1024, by have := j.isLt; omega⟩)
    (hb : b = Ideal.div (∑ k : Fin 2, h ⟨2 * (j.val - 1024) + k.val, by have := j.isLt; have := k.isLt; omega⟩)
        (Ideal.ofBits .f32 0x40000000#32))
    (hc : c = Ideal.div (∑ k : Fin 3, h ⟨3 * (j.val - 1024) + k.val, by have := j.isLt; have := k.isLt; omega⟩)
        (Ideal.ofBits .f32 0x40400000#32)) :
    (a + b) + c = row h j := by
  unfold row
  rw [dif_neg hj, ha, hb, hc]

/-- The features' entry `j < 1024` is the row's entry `j`. -/
private theorem row_head (h : Fin 1024 → EReal) (j : Fin 1365) (hj : j.val < 1024) : h ⟨j.val, hj⟩ = row h j := by
  unfold row
  rw [dif_pos hj]

/-- A kernel's spelling of the features is `pooled`. -/
theorem kernel_spelling (x : FVec Ideal ⟨3, ![R, 1, 1024]⟩ .f32)
    (hsq : (⟨3, ![R, 1, 1024]⟩ : Shape).ShapeCasts ⟨2, ![R, 1024]⟩)
    (hp2 : (⟨2, ![R, 1024]⟩ : Shape).ShapeCasts ⟨3, ![R, 512, 2]⟩)
    (hs3 : (⟨2, ![R, 1024]⟩ : Shape).Slices ![0, 0] ⟨2, ![R, 1023]⟩)
    (hp3 : (⟨2, ![R, 1023]⟩ : Shape).ShapeCasts ⟨3, ![R, 341, 3]⟩)
    (hs1 : (⟨2, ![R, 1024]⟩ : Shape).Slices ![0, 0] ⟨2, ![R, 341]⟩)
    (hs2 : (⟨2, ![R, 512]⟩ : Shape).Slices ![0, 0] ⟨2, ![R, 341]⟩)
    (hc : Shape.Concatenates [(⟨2, ![R, 1024]⟩ : Shape), ⟨2, ![R, 341]⟩] ⟨2, ![R, 1365]⟩ (1 : Fin 2))
    (hr2 : (⟨3, ![R, 512, 2]⟩ : Shape).Reduces [2] ⟨2, ![R, 512]⟩) (hφ2 : FKind.Formats .f32)
    (hacc2 : (0x00000000#32 : BitVec (FTy.bits .f32)) = FKind.add.neutral .f32 hφ2)
    (hr3 : (⟨3, ![R, 341, 3]⟩ : Shape).Reduces [2] ⟨2, ![R, 341]⟩) (hφ3 : FKind.Formats .f32)
    (hacc3 : (0x00000000#32 : BitVec (FTy.bits .f32)) = FKind.add.neutral .f32 hφ3) :
    concatenate ⟨2, ![R, 1365]⟩ 1 [⟨⟨2, ![R, 1024]⟩, (shapeCast ⟨2, ![R, 1024]⟩ x hsq)⟩, ⟨⟨2, ![R, 341]⟩, (addf (addf (extractStridedSlice ⟨2, ![R, 341]⟩ ![0, 0] (shapeCast ⟨2, ![R, 1024]⟩ x hsq) hs1) (extractStridedSlice ⟨2, ![R, 341]⟩ ![0, 0] (divf (multiReduction .add [2] ⟨2, ![R, 512]⟩ (shapeCast ⟨3, ![R, 512, 2]⟩ (shapeCast ⟨2, ![R, 1024]⟩ x hsq) hp2) 0x00000000#32 hr2 hφ2 hacc2) (broadcast ⟨2, ![R, 512]⟩ (Scalar.ofBits .f32 0x40000000#32))) hs2)) (divf (multiReduction .add [2] ⟨2, ![R, 341]⟩ (shapeCast ⟨3, ![R, 341, 3]⟩ (extractStridedSlice ⟨2, ![R, 1023]⟩ ![0, 0] (shapeCast ⟨2, ![R, 1024]⟩ x hsq) hs3) hp3) 0x00000000#32 hr3 hφ3 hacc3) (broadcast ⟨2, ![R, 341]⟩ (Scalar.ofBits .f32 0x40400000#32))))⟩] hc
      = pooled x := by
  funext i
  obtain ⟨r, j, rfl⟩ : ∃ (r : Fin R) (j : Fin 1365), i = ix2 r j := ⟨i 0, i 1, eq_ix2 i⟩
  rw [pooled_apply]
  by_cases hj : j.val < 1024
  · refine (JoinColumns.left_apply _ _ hc r ⟨j.val, hj⟩ j rfl).trans ?_
    exact (squeeze_apply x hsq r _).trans (row_head (fun c => x (ix3 r (0 : Fin 1) c)) j hj)
  · have hj' := j.isLt
    refine (JoinColumns.right_apply _ _ hc r ⟨j.val - 1024, by omega⟩ j
      (by show j.val = 1024 + (j.val - 1024); omega)).trans ?_
    refine row_tail (fun c => x (ix3 r (0 : Fin 1) c)) j hj _ _ _ ?_ ?_ ?_
    · exact first_apply x hsq hs1 r _
    · refine (prefix_apply _ hs2 r _ ⟨j.val - 1024, by omega⟩ rfl).trans ?_
      refine (mean_kernel _ hr2 hφ2 hacc2 _ r _).trans ?_
      exact congrArg (fun s => Ideal.div s _) (Finset.sum_congr rfl fun k _ => pair_entry x hsq hp2 r _ k)
    · refine (mean_kernel _ hr3 hφ3 hacc3 _ r _).trans ?_
      exact congrArg (fun s => Ideal.div s _) (Finset.sum_congr rfl fun k _ => triple_entry x hsq hs3 hp3 r _ k)

/-- The host's spelling of the features is `pooled`. -/
theorem host_spelling (x : FVec Ideal ⟨3, ![R, 1, 1024]⟩ .f32)
    (hsq : (⟨3, ![R, 1, 1024]⟩ : Shape).ShapeCasts ⟨2, ![R, 1024]⟩)
    (hp2 : (⟨2, ![R, 1024]⟩ : Shape).ShapeCasts ⟨3, ![R, 512, 2]⟩)
    (hs3 : (⟨2, ![R, 1024]⟩ : Shape).Slices ![0, 0] ⟨2, ![R, 1023]⟩)
    (hp3 : (⟨2, ![R, 1023]⟩ : Shape).ShapeCasts ⟨3, ![R, 341, 3]⟩)
    (hs1 : (⟨2, ![R, 1024]⟩ : Shape).Slices ![0, 0] ⟨2, ![R, 341]⟩)
    (hs2 : (⟨2, ![R, 512]⟩ : Shape).Slices ![0, 0] ⟨2, ![R, 341]⟩)
    (hc : Shape.Concatenates [(⟨2, ![R, 1024]⟩ : Shape), ⟨2, ![R, 341]⟩] ⟨2, ![R, 1365]⟩ (1 : Fin 2))
    (hrt2 : (⟨3, ![R, 512, 2]⟩ : Shape).ReducesTo [2] ⟨2, ![R, 512]⟩) (hr2 : (⟨3, ![R, 512, 2]⟩ : Shape).Reduces [2] ⟨2, ![R, 512]⟩)
    (hrt3 : (⟨3, ![R, 341, 3]⟩ : Shape).ReducesTo [2] ⟨2, ![R, 341]⟩) (hr3 : (⟨3, ![R, 341, 3]⟩ : Shape).Reduces [2] ⟨2, ![R, 341]⟩)
    (hu : 0 < (⟨0, ![]⟩ : Shape).numel)
    (hb2 : (⟨0, ![]⟩ : Shape).BroadcastsInDim ⟨2, ![R, 512]⟩ (![] : Fin 0 → Fin 2))
    (hb3 : (⟨0, ![]⟩ : Shape).BroadcastsInDim ⟨2, ![R, 341]⟩ (![] : Fin 0 → Fin 2)) :
    concatenate ⟨2, ![R, 1365]⟩ 1 [⟨⟨2, ![R, 1024]⟩, (shapeCast ⟨2, ![R, 1024]⟩ x hsq)⟩, ⟨⟨2, ![R, 341]⟩, (addf (addf (extractStridedSlice ⟨2, ![R, 341]⟩ ![0, 0] (shapeCast ⟨2, ![R, 1024]⟩ x hsq) hs1) (extractStridedSlice ⟨2, ![R, 341]⟩ ![0, 0] (Host.divf (Host.reduceAdd (shapeCast ⟨3, ![R, 512, 2]⟩ (shapeCast ⟨2, ![R, 1024]⟩ x hsq) hp2) (constant (F := Ideal) ⟨0, ![]⟩ .f32 0x00000000#32) hrt2 hu) (broadcastInDim ⟨2, ![R, 512]⟩ ![] hb2 (constant (F := Ideal) ⟨0, ![]⟩ .f32 0x40000000#32))) hs2)) (Host.divf (Host.reduceAdd (shapeCast ⟨3, ![R, 341, 3]⟩ (extractStridedSlice ⟨2, ![R, 1023]⟩ ![0, 0] (shapeCast ⟨2, ![R, 1024]⟩ x hsq) hs3) hp3) (constant (F := Ideal) ⟨0, ![]⟩ .f32 0x00000000#32) hrt3 hu) (broadcastInDim ⟨2, ![R, 341]⟩ ![] hb3 (constant (F := Ideal) ⟨0, ![]⟩ .f32 0x40400000#32))))⟩] hc
      = pooled x := by
  funext i
  obtain ⟨r, j, rfl⟩ : ∃ (r : Fin R) (j : Fin 1365), i = ix2 r j := ⟨i 0, i 1, eq_ix2 i⟩
  rw [pooled_apply]
  by_cases hj : j.val < 1024
  · refine (JoinColumns.left_apply _ _ hc r ⟨j.val, hj⟩ j rfl).trans ?_
    exact (squeeze_apply x hsq r _).trans (row_head (fun c => x (ix3 r (0 : Fin 1) c)) j hj)
  · have hj' := j.isLt
    refine (JoinColumns.right_apply _ _ hc r ⟨j.val - 1024, by omega⟩ j
      (by show j.val = 1024 + (j.val - 1024); omega)).trans ?_
    refine row_tail (fun c => x (ix3 r (0 : Fin 1) c)) j hj _ _ _ ?_ ?_ ?_
    · exact first_apply x hsq hs1 r _
    · refine (prefix_apply _ hs2 r _ ⟨j.val - 1024, by omega⟩ rfl).trans ?_
      refine (mean_host _ hrt2 hr2 hu hb2 _ r _).trans ?_
      exact congrArg (fun s => Ideal.div s _) (Finset.sum_congr rfl fun k _ => pair_entry x hsq hp2 r _ k)
    · refine (mean_host _ hrt3 hr3 hu hb3 _ r _).trans ?_
      exact congrArg (fun s => Ideal.div s _) (Finset.sum_congr rfl fun k _ => triple_entry x hsq hs3 hp3 r _ k)

end Idealize.ShloMosaic.PooledFeatures

end
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.LibDotRowsByCols.lean ====
/-
  A host matrix product read at an entry.

  On the extended reals jnp's `dot_general` of an `[M, K]` left operand and a `[K, N]` right operand (the contraction on
  the left's second axis and the right's first, no batch axis) is at entry `(p, q)` the plain sum `∑ₖ l(p, k) · r(k, q)`:
  no rounding, no order of accumulation. The dimension record is kept abstract; what is asked of it is that it contracts
  one axis of extent `K` and reads its operands at `(p, k)` and `(k, q)`, four facts a concrete record gives by
  unfolding. (The host-side companion of the same statement for a `tpu.matmul` into a zero accumulator.) Imports only the
  library.
-/
import Idealize.ShloMosaic.PureOps.Ideal.Laws
import Idealize.ShloMosaic.Lib.ValueIdx

namespace Idealize.ShloMosaic.DotRowsByCols

open Idealize.ShloMosaic Idealize.ShloMosaic.ValueIdx

/-- `Host.dotGeneral D prec l r` at `(p, q)` is `∑ k, l (p, k) * r (k, q)`. -/
theorem dotGeneral_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  refine (Ideal.dotGeneral_apply D prec .single l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.DotRowsByCols
-- ==== Proof.LibMatrixProduct.lean ====
/-
  The product of two matrices of extended reals, as an array.

  For an `[M, K]` array `x` and a `[K, N]` array `w` of extended reals the product `x · w` is the `[M, N]` array whose
  entry `(p, q)` is `∑ₖ x(p, k) · w(k, q)`. On the extended reals, where no operation rounds and a sum has no order, two
  operations compute exactly this array: jnp's `dot_general` of the two operands (contraction on the left's second axis and
  the right's first, no batch axis), and a `tpu.matmul` with the same dimension numbers accumulated into the zero splat.
  The dimension record is kept abstract; what is asked of it is that it contracts one axis of extent `K` and reads its
  operands at `(p, k)` and `(k, q)`, facts a concrete record gives by unfolding.

  A row of the product reads only the same row of the left factor (`prod_row`): this is why a product computed block of
  rows by block of rows is the whole product.  Any extents.
-/
import Idealize.ShloMosaic.PureOps.Ideal.Laws
import Idealize.ShloMosaic.Lib.ValueIdx
import proofs.«126937_j8933531976323_1_alg».proof.Proof.LibMatmulRowsByCols
import proofs.«126937_j8933531976323_1_alg».proof.Proof.LibDotRowsByCols

namespace Idealize.ShloMosaic.MatrixProduct

open Idealize.ShloMosaic Idealize.ShloMosaic.ValueIdx

variable {M K N : ℕ} {φ₁ φ₂ : FTy}

/-- The product array: entry `i = (p, q)` is `∑ₖ x(p, k) · w(k, q)`. -/
noncomputable def prod (x : FVec Ideal ⟨2, ![M, K]⟩ φ₁) (w : FVec Ideal ⟨2, ![K, N]⟩ φ₂) : FVec Ideal ⟨2, ![M, N]⟩ .f32 :=
  fun i => ∑ k : Fin K, x (ix2 (i 0) k) * w (ix2 k (i 1))

/-- The product read at coordinates. -/
theorem prod_apply (x : FVec Ideal ⟨2, ![M, K]⟩ φ₁) (w : FVec Ideal ⟨2, ![K, N]⟩ φ₂) (p : Fin M) (q : Fin N) :
    prod x w (ix2 p q) = ∑ k : Fin K, x (ix2 p k) * w (ix2 k q) := rfl

/-- Row `p'` of `x' · w` is row `p` of `x · w` as soon as row `p'` of `x'` is row `p` of `x`: a row of the product reads
    one row of the left factor and all of the right one. -/
theorem prod_row {M' : ℕ} (x : FVec Ideal ⟨2, ![M, K]⟩ φ₁) (x' : FVec Ideal ⟨2, ![M', K]⟩ φ₁)
    (w : FVec Ideal ⟨2, ![K, N]⟩ φ₂) (p : Fin M) (p' : Fin M') (q : Fin N)
    (h : ∀ k : Fin K, x' (ix2 p' k) = x (ix2 p k)) : prod x' w (ix2 p' q) = prod x w (ix2 p q) := by
  rw [prod_apply, prod_apply]
  exact Finset.sum_congr rfl fun k _ => by rw [h k]

/-- jnp's `dot_general` of an `[M, K]` and a `[K, N]` operand is their product. -/
theorem dotGeneral_eq (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r := by
  funext i
  obtain ⟨p, q, rfl⟩ : ∃ (p : Fin M) (q : Fin N), i = ix2 p q := ⟨i 0, i 1, eq_ix2 i⟩
  exact DotRowsByCols.dotGeneral_apply D hr hs hl0 hl1 hr0 hr1 prec l r p q

/-- A `tpu.matmul` of an `[M, K]` and a `[K, N]` operand into the zero accumulator is their product. -/
theorem matmul_zero_eq (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r := by
  funext i
  obtain ⟨p, q, rfl⟩ : ∃ (p : Fin M) (q : Fin N), i = ix2 p q := ⟨i 0, i 1, eq_ix2 i⟩
  exact MatmulRowsByCols.matmul_zero_apply D hr hs hl0 hl1 hr0 hr1 prec l r p q

end Idealize.ShloMosaic.MatrixProduct
-- ==== Proof.LibOneRowMatrix.lean ====
/-
  A bias as a one-row matrix, read at an entry.

  A dense layer adds its bias to every row. The vector of length n is first viewed as a 1 × n matrix, whose entry
  (0, q) is the vector's entry q, and that one-row matrix is then broadcast down the rows of an m × n array, whose
  entry (p, q) is the row's entry (0, q). Any extents and any element type; imports only the library.
-/
import Idealize.ShloMosaic.Lib.Pipeline.Value
import Idealize.ShloMosaic.Lib.ValueIdx

namespace Idealize.ShloMosaic.OneRowMatrix

open Idealize.ShloMosaic Idealize.ShloMosaic.ValueIdx

/-- A vector viewed as a one-row matrix reads, at (0, q), the vector at q. -/
theorem row_of_vector {α : Type} {n : Nat} (b : (⟨1, ![n]⟩ : Shape).Idx → α)
    (h : (⟨1, ![n]⟩ : Shape).ShapeCasts ⟨2, ![1, n]⟩) (q : Fin n) :
    shapeCast (⟨2, ![1, n]⟩ : Shape) b h (ix2 0 q) = b (ix1 q) := by
  refine shapeCast_apply b h (ix2 0 q) (ix1 q) ?_
  rw [Shape.rowMajor_val_two, Shape.rowMajor_val_one]
  show q.val = 0 * n + q.val
  omega

/-- A one-row matrix broadcast down the rows reads, at (p, q), its row at (0, q). -/
theorem broadcast_row_apply {α : Type} {m n : Nat} (b : (⟨2, ![1, n]⟩ : Shape).Idx → α)
    (h : (⟨2, ![1, n]⟩ : Shape).Broadcasts ⟨2, ![m, n]⟩) (p : Fin m) (q : Fin n) :
    broadcastTo (⟨2, ![m, n]⟩ : Shape) b h (ix2 p q) = b (ix2 0 q) :=
  broadcastTo_apply b h (ix2 p q) (ix2 0 q) (fun a => by
    match a with
    | ⟨0, _⟩ => show (0 : Nat) = if (1 : Nat) = 1 then 0 else _; rw [if_pos rfl]
    | ⟨1, _⟩ =>
      show q.val = if n = 1 then 0 else q.val
      split
      · have := q.isLt; omega
      · rfl)

end Idealize.ShloMosaic.OneRowMatrix
-- ==== Proof.LibRowBroadcast.lean ====
/-
  A vector broadcast over the rows of a matrix, and a scalar over all of it, read at an entry.

  jnp adds a bias vector `b` of length `n` to an `[a, n]` matrix by two `broadcast_in_dim`s: `[n] -> [1, n]` along axis 1,
  then `[1, n] -> [a, n]` along axes (0, 1). Read at `(p, q)` the result is `b q`, whatever the row `p`. A scalar
  broadcast to any shape reads, at every index, the scalar. Any extents; imports only the library.
-/
import Idealize.ShloMosaic.Lib.Pipeline.Value
import Idealize.ShloMosaic.Lib.ValueIdx

namespace Idealize.ShloMosaic.RowBroadcast

open Idealize.ShloMosaic Idealize.ShloMosaic.ValueIdx

variable {α : Type}

/-- `[n] -> [1, n] -> [a, n]` read at `(p, q)` is the vector at `q`. -/
theorem row_apply {a n : ℕ} (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1])
    (p : Fin a) (q : Fin n) :
    broadcastInDim ⟨2, ![a, n]⟩ ![0, 1] h2 (broadcastInDim ⟨2, ![1, n]⟩ ![1] h1 x) (ix2 p q) = x (ix1 q) := by
  refine (broadcastInDim_apply ![0, 1] h2 _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply ![1] h1 x (ix2 (0 : Fin 1) q) (ix1 q) fun ax => ?_
    match ax with
    | ⟨0, _⟩ =>
      show q.val = if n = 1 then 0 else q.val
      split
      · have := q.isLt; omega
      · rfl

/-- A scalar broadcast to any shape reads the scalar at every index. -/
theorem scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

end Idealize.ShloMosaic.RowBroadcast
-- ==== Proof.LibDenseLayer.lean ====
/-
  A dense layer on the extended reals, as an array: `x · w + b` on every row, and its rectified form.

  For an `[M, K]` input `x`, a `[K, N]` weight `w` and a bias `b` of length `N`, the layer's output is the `[M, N]` array
  whose entry `(p, q)` is `(x · w)(p, q) + b(q)`; the rectifier takes the maximum of every entry and the zero word.
  Two spellings of the layer compute exactly that array on the extended reals:
    * the host's: `dot_general`, the bias broadcast `[N] → [1, N] → [M, N]` by two `broadcast_in_dim`s and added, the
      maximum with a scalar zero broadcast to the shape;
    * a kernel's: a `tpu.matmul` into the zero accumulator, the bias shape-cast to `[1, N]`, broadcast down the rows and
      added, the maximum with a zero splat.
  The dimension record is abstract: it contracts one axis of extent `K` and reads its operands at `(p, k)` and `(k, q)`.
  Any extents.
-/
import Idealize.ShloMosaic.PureOps.Ideal.Laws
import Idealize.ShloMosaic.Lib.ValueIdx
import Idealize.ShloMosaic.Lib.Pipeline.Value
import proofs.«126937_j8933531976323_1_alg».proof.Proof.LibMatrixProduct
import proofs.«126937_j8933531976323_1_alg».proof.Proof.LibOneRowMatrix
import proofs.«126937_j8933531976323_1_alg».proof.Proof.LibRowBroadcast

namespace Idealize.ShloMosaic.DenseLayer

open Idealize.ShloMosaic Idealize.ShloMosaic.ValueIdx

variable {M K N : ℕ} {φ₁ φ₂ : FTy}

/-- `x · w + b`: entry `i = (p, q)` is `(x · w)(p, q) + b(q)`. -/
noncomputable def affine (x : FVec Ideal ⟨2, ![M, K]⟩ φ₁) (w : FVec Ideal ⟨2, ![K, N]⟩ φ₂) (b : FVec Ideal ⟨1, ![N]⟩ .f32) :
    FVec Ideal ⟨2, ![M, N]⟩ .f32 :=
  fun i => FloatOps.addf (MatrixProduct.prod x w i) (b (ix1 (i 1)))

/-- The rectifier: every entry's maximum with the zero word. -/
noncomputable def rectify {s : Shape} (y : FVec Ideal s .f32) : FVec Ideal s .f32 :=
  fun i => FloatOps.maximumf (y i) (FloatOps.ofBits (F := Ideal) .f32 0x00000000#32)

/-- The host's layer: `dot_general` plus the bias broadcast over the rows. -/
theorem host_affine (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (x : FVec Ideal ⟨2, ![M, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w) (broadcastInDim ⟨2, ![M, N]⟩ ![0, 1] h2 (broadcastInDim ⟨2, ![1, N]⟩ ![1] h1 b))
      = affine x w b := by
  rw [MatrixProduct.dotGeneral_eq D hr hs hl0 hl1 hr0 hr1]
  funext i
  obtain ⟨p, q, rfl⟩ : ∃ (p : Fin M) (q : Fin N), i = ix2 p q := ⟨i 0, i 1, eq_ix2 i⟩
  show FloatOps.addf (MatrixProduct.prod x w (ix2 p q)) (broadcastInDim ⟨2, ![M, N]⟩ ![0, 1] h2 (broadcastInDim ⟨2, ![1, N]⟩ ![1] h1 b) (ix2 p q)) = _
  rw [RowBroadcast.row_apply]
  rfl

/-- A kernel's layer: a `tpu.matmul` into zero plus the bias as a one-row matrix broadcast down the rows. -/
theorem kernel_affine (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (x : FVec Ideal ⟨2, ![M, K]⟩ φ₁) (w : FVec Ideal ⟨2, ![K, N]⟩ φ₂)
    (b : FVec Ideal ⟨1, ![N]⟩ .f32)
    (h1 : (⟨1, ![N]⟩ : Shape).ShapeCasts ⟨2, ![1, N]⟩)
    (h2 : (⟨2, ![1, N]⟩ : Shape).Broadcasts ⟨2, ![M, N]⟩) :
    addf (matmul D prec x w (constant (F := Ideal) ⟨2, ![M, N]⟩ .f32 0x00000000#32))
        (broadcastTo ⟨2, ![M, N]⟩ (shapeCast ⟨2, ![1, N]⟩ b h1) h2)
      = affine x w b := by
  rw [MatrixProduct.matmul_zero_eq D hr hs hl0 hl1 hr0 hr1]
  funext i
  obtain ⟨p, q, rfl⟩ : ∃ (p : Fin M) (q : Fin N), i = ix2 p q := ⟨i 0, i 1, eq_ix2 i⟩
  show FloatOps.addf (MatrixProduct.prod x w (ix2 p q)) (broadcastTo ⟨2, ![M, N]⟩ (shapeCast ⟨2, ![1, N]⟩ b h1) h2 (ix2 p q)) = _
  rw [OneRowMatrix.broadcast_row_apply, OneRowMatrix.row_of_vector]
  rfl

/-- The host's rectifier: the maximum with a scalar zero broadcast to the shape. -/
theorem host_rectify {s : Shape} (y : FVec Ideal s .f32)
    (h : (⟨0, ![]⟩ : Shape).BroadcastsInDim s (![] : Fin 0 → Fin s.rank)) :
    maximumf y (broadcastInDim s ![] h (constant (F := Ideal) ⟨0, ![]⟩ .f32 0x00000000#32)) = rectify y := by
  funext i
  show FloatOps.maximumf (y i) (broadcastInDim s ![] h (constant (F := Ideal) ⟨0, ![]⟩ .f32 0x00000000#32) i) = _
  rw [RowBroadcast.scalar_apply]
  rfl

/-- A kernel's rectifier: the maximum with a zero splat. -/
theorem kernel_rectify {s : Shape} (y : FVec Ideal s .f32) :
    maximumf y (broadcast s (FloatOps.ofBits (F := Ideal) .f32 0x00000000#32)) = rectify y := rfl

end Idealize.ShloMosaic.DenseLayer
-- ==== Proof.Head.lean ====
/-
  A two-layer perceptron on multi-scale pooled features, as an array.

  For an `[R, 1, 1024]` input `x`, weights `w1 : [1365, 256]`, `w2 : [256, 1024]` and biases `b1`, `b2`, the head's
  output is the `[R, 1024]` array `max(pooled x · w1 + b1, 0) · w2 + b2` on the extended reals: the pooled features
  of every row through a dense layer, the rectifier, and a second dense layer. A row of the output reads only the same
  row of the input (`head_row`), which is why the output computed block of rows by block of rows is the whole output;
  and the format the weights are stored in plays no part, a change of float format being the identity on the extended
  reals (`head_weights_format`). Any number of rows.
-/
import proofs.«126937_j8933531976323_1_alg».proof.Proof.LibPooledFeatures
import proofs.«126937_j8933531976323_1_alg».proof.Proof.LibDenseLayer

noncomputable section

namespace Cert.Head

open Idealize.ShloMosaic Idealize.ShloMosaic.ValueIdx

variable {R : ℕ} {φ₁ φ₂ : FTy}

/-- `max(pooled x · w1 + b1, 0) · w2 + b2`. -/
def head (x : FVec Ideal ⟨3, ![R, 1, 1024]⟩ .f32) (w1 : FVec Ideal ⟨2, ![1365, 256]⟩ φ₁) (b1 : FVec Ideal ⟨1, ![256]⟩ .f32)
    (w2 : FVec Ideal ⟨2, ![256, 1024]⟩ φ₂) (b2 : FVec Ideal ⟨1, ![1024]⟩ .f32) : FVec Ideal ⟨2, ![R, 1024]⟩ .f32 :=
  DenseLayer.affine (DenseLayer.rectify (DenseLayer.affine (PooledFeatures.pooled x) w1 b1)) w2 b2

/-- Row `p'` of `x' · w + b` is row `p` of `x · w + b` as soon as row `p'` of `x'` is row `p` of `x`. -/
theorem affine_row {M M' K N : ℕ} {ψ₁ ψ₂ : FTy} (x : FVec Ideal ⟨2, ![M, K]⟩ ψ₁) (x' : FVec Ideal ⟨2, ![M', K]⟩ ψ₁)
    (w : FVec Ideal ⟨2, ![K, N]⟩ ψ₂) (b : FVec Ideal ⟨1, ![N]⟩ .f32) (p : Fin M) (p' : Fin M') (q : Fin N)
    (h : ∀ k : Fin K, x' (ix2 p' k) = x (ix2 p k)) :
    DenseLayer.affine x' w b (ix2 p' q) = DenseLayer.affine x w b (ix2 p q) := by
  show FloatOps.addf (MatrixProduct.prod x' w (ix2 p' q)) (b (ix1 q)) = FloatOps.addf (MatrixProduct.prod x w (ix2 p q)) (b (ix1 q))
  rw [MatrixProduct.prod_row x x' w p p' q h]

/-- Row `r'` of the head's output on `x'` is row `r` of its output on `x` as soon as the two input rows agree. -/
theorem head_row {R' : ℕ} (x : FVec Ideal ⟨3, ![R, 1, 1024]⟩ .f32) (x' : FVec Ideal ⟨3, ![R', 1, 1024]⟩ .f32)
    (w1 : FVec Ideal ⟨2, ![1365, 256]⟩ φ₁) (b1 : FVec Ideal ⟨1, ![256]⟩ .f32)
    (w2 : FVec Ideal ⟨2, ![256, 1024]⟩ φ₂) (b2 : FVec Ideal ⟨1, ![1024]⟩ .f32) (r : Fin R) (r' : Fin R') (q : Fin 1024)
    (h : ∀ c : Fin 1024, x' (ix3 r' (0 : Fin 1) c) = x (ix3 r (0 : Fin 1) c)) :
    head x' w1 b1 w2 b2 (ix2 r' q) = head x w1 b1 w2 b2 (ix2 r q) := by
  unfold head
  refine affine_row _ _ w2 b2 r r' q fun k => ?_
  show FloatOps.maximumf (DenseLayer.affine (PooledFeatures.pooled x') w1 b1 (ix2 r' k)) _
    = FloatOps.maximumf (DenseLayer.affine (PooledFeatures.pooled x) w1 b1 (ix2 r k)) _
  rw [affine_row (PooledFeatures.pooled x) (PooledFeatures.pooled x') w1 b1 r r' k
    fun j => PooledFeatures.pooled_row x x' r r' j h]

/-- Weights rounded to another float format give the same output: on the extended reals the rounding is the identity. -/
theorem head_weights_format {ψ₁ ψ₂ : FTy} (x : FVec Ideal ⟨3, ![R, 1, 1024]⟩ .f32) (w1 : FVec Ideal ⟨2, ![1365, 256]⟩ φ₁)
    (b1 : FVec Ideal ⟨1, ![256]⟩ .f32) (w2 : FVec Ideal ⟨2, ![256, 1024]⟩ φ₂) (b2 : FVec Ideal ⟨1, ![1024]⟩ .f32)
    (h1 : ψ₁.bits < φ₁.bits) (h2 : ψ₂.bits < φ₂.bits) :
    head x (truncf ψ₁ w1 h1) b1 (truncf ψ₂ w2 h2) b2 = head x w1 b1 w2 b2 := rfl

end Cert.Head

end
-- ==== Proof.KernelBlock.lean ====
/-
  What one grid point's body stores: the head's output on the point's block of rows.

  The body is one pure term of its five loaded blocks. Its first seventeen operations are a kernel's spelling of the
  pooled features of the input block; the rest is two dense layers with the rectifier between them, each layer a
  matrix product into the zero accumulator plus the bias broadcast down the rows. On the extended reals the rounding of
  a layer's input to bf16 and the cast of a weight block to its own shape are the identity, so the term is the head.
-/
import proofs.«126937_j8933531976323_1_alg».proof.Proof.Gen.KernelIdeal.Skeleton
import proofs.«126937_j8933531976323_1_alg».proof.Proof.Head

noncomputable section

namespace Cert.KernelIdeal.Block

open Cert.KernelIdeal Cert.KernelIdeal.Gen Idealize.ShloMosaic Idealize.ShloMosaic.ValueIdx

/-- The first layer's contraction reads its left operand at `(p, k)`: coordinate 0 is the output row. -/
private theorem layer1_lhs0 (i : S1024x256.Idx) (q : dot_S1024x1365_S1365x256_S1024x256_1_0_0_1_n_n.contr.Idx) :
    (dot_S1024x1365_S1365x256_S1024x256_1_0_0_1_n_n.lhsIdx i q 0).val = (i 0).val := by
  unfold DotDims.lhsIdx
  rw [dif_neg (show ¬(0 : Fin S1024x1365.rank) ∈ dot_S1024x1365_S1365x256_S1024x256_1_0_0_1_n_n.lhsBatch by decide), dif_pos (show (0 : Fin S1024x1365.rank) ∈ dot_S1024x1365_S1365x256_S1024x256_1_0_0_1_n_n.lhsNonContracting by decide)]
  rfl

/-- … and coordinate 1 is the contracted index. -/
private theorem layer1_lhs1 (i : S1024x256.Idx) (q : dot_S1024x1365_S1365x256_S1024x256_1_0_0_1_n_n.contr.Idx) :
    (dot_S1024x1365_S1365x256_S1024x256_1_0_0_1_n_n.lhsIdx i q 1).val = (q ⟨0, by decide⟩).val :=
  dot_S1024x1365_S1365x256_S1024x256_1_0_0_1_n_n.lhsIdx_val_of_single rfl i q

/-- The first layer's contraction reads its right operand at `(k, q)`: coordinate 0 is the contracted index. -/
private theorem layer1_rhs0 (i : S1024x256.Idx) (q : dot_S1024x1365_S1365x256_S1024x256_1_0_0_1_n_n.contr.Idx) :
    (dot_S1024x1365_S1365x256_S1024x256_1_0_0_1_n_n.rhsIdx i q 0).val = (q ⟨0, by decide⟩).val :=
  dot_S1024x1365_S1365x256_S1024x256_1_0_0_1_n_n.rhsIdx_val_of_single rfl i q

/-- … and coordinate 1 is the output column. -/
private theorem layer1_rhs1 (i : S1024x256.Idx) (q : dot_S1024x1365_S1365x256_S1024x256_1_0_0_1_n_n.contr.Idx) :
    (dot_S1024x1365_S1365x256_S1024x256_1_0_0_1_n_n.rhsIdx i q 1).val = (i 1).val := by
  unfold DotDims.rhsIdx
  rw [dif_neg (show ¬(1 : Fin S1365x256.rank) ∈ dot_S1024x1365_S1365x256_S1024x256_1_0_0_1_n_n.rhsBatch by decide), dif_pos (show (1 : Fin S1365x256.rank) ∈ dot_S1024x1365_S1365x256_S1024x256_1_0_0_1_n_n.rhsNonContracting by decide)]
  rfl

/-- The second layer's contraction reads its left operand at `(p, k)`: coordinate 0 is the output row. -/
private theorem layer2_lhs0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl

/-- … and coordinate 1 is the contracted index. -/
private theorem layer2_lhs1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q

/-- The second layer's contraction reads its right operand at `(k, q)`: coordinate 0 is the contracted index. -/
private theorem layer2_rhs0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q

/-- … and coordinate 1 is the output column. -/
private theorem layer2_rhs1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The body's first layer on any `[1024, 1365]` array `f`: the array rounded to bf16 (the identity on the extended
    reals), multiplied into the zero accumulator with the weight block cast to its own shape (the identity), plus the bias
    as a one-row matrix broadcast down the rows, is `f · w1 + b1`. -/
private theorem layer1_eq (f : FVec Ideal S1024x1365 .f32) (x1 : FVec Ideal S1365x256 .bf16) (x2 : FVec Ideal S256 .f32) :
    addf (matmul dot_S1024x1365_S1365x256_S1024x256_1_0_0_1_n_n none (truncf .bf16 f bitsLt_bf16_f32)
        (shapeCast S1365x256 x1 shapeCasts_S1365x256_S1365x256) (constant (F := Ideal) S1024x256 .f32 0x00000000#32))
      (broadcastTo S1024x256 (shapeCast S1x256 x2 shapeCasts_S256_S1x256) broadcasts_S1x256_S1024x256)
      = DenseLayer.affine f x1 x2 := by
  rw [shapeCast_self]
  exact DenseLayer.kernel_affine dot_S1024x1365_S1365x256_S1024x256_1_0_0_1_n_n rfl rfl layer1_lhs0 layer1_lhs1
    layer1_rhs0 layer1_rhs1 none (truncf .bf16 f bitsLt_bf16_f32) x1 x2 shapeCasts_S256_S1x256 broadcasts_S1x256_S1024x256

/-- The body's second layer on any `[1024, 256]` array `g`, in the same way, is `g · w2 + b2`. -/
private theorem layer2_eq (g : FVec Ideal S1024x256 .f32) (x3 : FVec Ideal S256x1024 .bf16) (x4 : FVec Ideal S1024 .f32) :
    addf (matmul dot_S1024x256_S256x1024_S1024x1024_1_0_0_1_n_n none (truncf .bf16 g bitsLt_bf16_f32)
        (shapeCast S256x1024 x3 shapeCasts_S256x1024_S256x1024) (constant (F := Ideal) S1024x1024 .f32 0x00000000#32))
      (broadcastTo S1024x1024 (shapeCast S1x1024 x4 shapeCasts_S1024_S1x1024) broadcasts_S1x1024_S1024x1024)
      = DenseLayer.affine g x3 x4 := by
  rw [shapeCast_self]
  exact DenseLayer.kernel_affine dot_S1024x256_S256x1024_S1024x1024_1_0_0_1_n_n rfl rfl layer2_lhs0 layer2_lhs1
    layer2_rhs0 layer2_rhs1 none (truncf .bf16 g bitsLt_bf16_f32) x3 x4 shapeCasts_S1024_S1x1024 broadcasts_S1x1024_S1024x1024

/-- The body's stored value, of its five loaded blocks, is the head's output on the 1024 rows of the input block. -/
theorem payload_eq (x0 : FVec Ideal S1024x1x1024 .f32) (x1 : FVec Ideal S1365x256 .bf16) (x2 : FVec Ideal S256 .f32)
    (x3 : FVec Ideal S256x1024 .bf16) (x4 : FVec Ideal S1024 .f32) :
    k0_pay1 (F := Ideal) x0 x1 x2 x3 x4 = Cert.Head.head x0 x1 x2 x3 x4 := by
  unfold k0_pay1 Cert.Head.head
  -- the body's first seventeen operations are the kernel's spelling of the pooled features
  have hfeat := PooledFeatures.kernel_spelling (R := 1024) x0 shapeCasts_S1024x1x1024_S1024x1024
    shapeCasts_S1024x1024_S1024x512x2 slices_S1024x1024_o0_0_S1024x1023 shapeCasts_S1024x1023_S1024x341x3
    slices_S1024x1024_o0_0_S1024x341 slices_S1024x512_o0_0_S1024x341 concatenates_S1024x1024_S1024x341_S1024x1365_d1
    reduces_S1024x512x2_S1024x512 (.inl rfl) rfl reduces_S1024x341x3_S1024x341 (.inl rfl) rfl
  -- then: first layer, rectifier, second layer
  exact (layer2_eq _ x3 x4).trans
    (congrArg (fun g => DenseLayer.affine g x3 x4)
      ((DenseLayer.kernel_rectify _).trans
        (congrArg DenseLayer.rectify
          ((layer1_eq _ x1 x2).trans (congrArg (fun f => DenseLayer.affine f x1 x2) hfeat)))))

end Cert.KernelIdeal.Block

end
-- ==== Proof.KernelArray.lean ====
/-
  The kernel's output array after all 32 grid points: the head's output on the whole input.

  Grid point `t` stages rows `1024·t … 1024·t + 1023` of the input (the four parameter arrays whole, at every point) and
  writes back rows `1024·t … 1024·t + 1023` of the output, all 1024 columns. What the body stores is the head's output
  on its block of rows (`Block.payload_eq`), and a row of the head's output reads only the same row of the input
  (`Head.head_row`): so what point `t` writes back is block `t` of ONE array, the head's output on the whole input
  (`flushed_eq`). Row `r` of the output lies in the block of point `r / 1024`, so the 32 blocks cover the output
  (`cover`), and the array ends holding that function (`final`).
-/
import proofs.«126937_j8933531976323_1_alg».proof.Proof.Gen.KernelIdeal.Frame
import proofs.«126937_j8933531976323_1_alg».proof.Proof.KernelBlock
import Idealize.ShloMosaic.Lib.Pipeline.Value

noncomputable section

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The output array as one function of the five arrays the region finds: the head's output on all 32768 rows. -/
def result (c : Dev nD) : FVec Ideal S32768x1024 .f32 :=
  Cert.Head.head (φ₁ := .bf16) (φ₂ := .bf16) (V m c main_arg0 : FVec Ideal S32768x1x1024 .f32) (V m c main_v1 : FVec Ideal S1365x256 .bf16)
    (V m c main_arg2 : FVec Ideal S256 .f32) (V m c main_v3 : FVec Ideal S256x1024 .bf16)
    (V m c main_arg4 : FVec Ideal S1024 .f32)

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps over the grid: the input's and the output's block index on the row axis is the point, every
    other block index is zero. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The first weight matrix is staged whole at every point. -/
theorem block1_eq (c : Dev nD) (t : Fin cfg0.N) : iblk m c 1 t = (V m c main_v1 : FVec Ideal S1365x256 .bf16) := by
  obtain ⟨_, _, _, e0, e1, _⟩ := index_facts t
  funext y
  show V m c main_v1 (((cfg0.win 1).blk t).view.emb y) = V m c main_v1 y
  refine congrArg (V m c main_v1) (funext fun a => Fin.ext ?_)
  match a with
  | ⟨0, _⟩ => show win0_1.index t (0 : Fin 2) * 1365 + 1 * (y 0).val = (y 0).val; omega
  | ⟨1, _⟩ => show win0_1.index t (1 : Fin 2) * 256 + 1 * (y 1).val = (y 1).val; omega

/-- The first bias is staged whole at every point. -/
theorem block2_eq (c : Dev nD) (t : Fin cfg0.N) : iblk m c 2 t = (V m c main_arg2 : FVec Ideal S256 .f32) := by
  obtain ⟨_, _, _, _, _, e0, _⟩ := index_facts t
  funext y
  show V m c main_arg2 (((cfg0.win 2).blk t).view.emb y) = V m c main_arg2 y
  refine congrArg (V m c main_arg2) (funext fun a => Fin.ext ?_)
  match a with
  | ⟨0, _⟩ => show win0_2.index t (0 : Fin 1) * 256 + 1 * (y 0).val = (y 0).val; omega

/-- The second weight matrix is staged whole at every point. -/
theorem block3_eq (c : Dev nD) (t : Fin cfg0.N) : iblk m c 3 t = (V m c main_v3 : FVec Ideal S256x1024 .bf16) := by
  obtain ⟨_, _, _, _, _, _, e0, e1, _⟩ := index_facts t
  funext y
  show V m c main_v3 (((cfg0.win 3).blk t).view.emb y) = V m c main_v3 y
  refine congrArg (V m c main_v3) (funext fun a => Fin.ext ?_)
  match a with
  | ⟨0, _⟩ => show win0_3.index t (0 : Fin 2) * 256 + 1 * (y 0).val = (y 0).val; omega
  | ⟨1, _⟩ => show win0_3.index t (1 : Fin 2) * 1024 + 1 * (y 1).val = (y 1).val; omega

/-- The second bias is staged whole at every point. -/
theorem block4_eq (c : Dev nD) (t : Fin cfg0.N) : iblk m c 4 t = (V m c main_arg4 : FVec Ideal S1024 .f32) := by
  obtain ⟨_, _, _, _, _, _, _, _, e0, _⟩ := index_facts t
  funext y
  show V m c main_arg4 (((cfg0.win 4).blk t).view.emb y) = V m c main_arg4 y
  refine congrArg (V m c main_arg4) (funext fun a => Fin.ext ?_)
  match a with
  | ⟨0, _⟩ => show win0_4.index t (0 : Fin 1) * 1024 + 1 * (y 0).val = (y 0).val; omega

/-- Entry `(p, 0, k)` of the input block at point `t` is entry `(1024·t + p, 0, k)` of the input array. -/
theorem block0_apply (c : Dev nD) (t : Fin cfg0.N) (y : S1024x1x1024.Idx) (z : S32768x1x1024.Idx)
    (h0 : (z 0).val = t.val * 1024 + (y 0).val) (h2 : (z 2).val = (y 2).val) :
    iblk m c 0 t y = (V m c main_arg0 : FVec Ideal S32768x1x1024 .f32) z := by
  obtain ⟨e0, e1, e2, _⟩ := index_facts t
  show V m c main_arg0 (((cfg0.win 0).blk t).view.emb y) = V m c main_arg0 z
  refine congrArg (V m c main_arg0) (funext fun a => Fin.ext ?_)
  have hy1 : (y 1).val < 1 := (y 1).isLt
  have hz1 : (z 1).val < 1 := (z 1).isLt
  match a with
  | ⟨0, _⟩ => show win0_0.index t (0 : Fin 3) * 1024 + 1 * (y 0).val = (z 0).val; omega
  | ⟨1, _⟩ => show win0_0.index t (1 : Fin 3) * 1 + 1 * (y 1).val = (z 1).val; omega
  | ⟨2, _⟩ => show win0_0.index t (2 : Fin 3) * 1024 + 1 * (y 2).val = (z 2).val; omega

/-- The head's output on a block of 1024 rows that are rows `1024·T + p` of a larger input, read at `j`, is its
    output on the larger input read at the index `1024·T` rows further down. -/
theorem head_block {φ₁ φ₂ : FTy} (X : FVec Ideal S32768x1x1024 .f32) (W1 : FVec Ideal S1365x256 φ₁) (B1 : FVec Ideal S256 .f32)
    (W2 : FVec Ideal S256x1024 φ₂) (B2 : FVec Ideal S1024 .f32) (x0 : FVec Ideal S1024x1x1024 .f32) (T : ℕ)
    (h0 : ∀ (y : S1024x1x1024.Idx) (z : S32768x1x1024.Idx), (z 0).val = T * 1024 + (y 0).val → (z 2).val = (y 2).val → x0 y = X z)
    (j : S1024x1024.Idx) (i : S32768x1024.Idx) (hi0 : (i 0).val = T * 1024 + (j 0).val) (hi1 : (i 1).val = (j 1).val) :
    Cert.Head.head x0 W1 B1 W2 B2 j = Cert.Head.head X W1 B1 W2 B2 i := by
  obtain ⟨p, q, rfl⟩ : ∃ (p : Fin 1024) (q : Fin 1024), j = ix2 p q := ⟨j 0, j 1, eq_ix2 j⟩
  obtain ⟨r, q', rfl⟩ : ∃ (r : Fin 32768) (q' : Fin 1024), i = ix2 r q' := ⟨i 0, i 1, eq_ix2 i⟩
  obtain rfl : q' = q := Fin.ext hi1
  exact Cert.Head.head_row X x0 W1 B1 W2 B2 r p q' fun c => h0 (ix3 p (0 : Fin 1) c) (ix3 r (0 : Fin 1) c) hi0 rfl

/-- WHAT POINT `t` WRITES BACK is block `t` of the head's output on the whole input. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero zero2]
  simp only [View.ld_unit_zero (S := S1024x1x1024) zero3, View.ld_unit_zero (S := S1365x256) zero2,
    View.ld_unit_zero (S := S256) zero1, View.ld_unit_zero (S := S256x1024) zero2, View.ld_unit_zero (S := S1024) zero1]
  rw [block1_eq, block2_eq, block3_eq, block4_eq, Block.payload_eq]
  obtain ⟨_, _, _, _, _, _, _, _, _, e0, e1⟩ := index_facts t
  funext j
  show Cert.Head.head (φ₁ := .bf16) (φ₂ := .bf16) (iblk m c 0 t) (V m c main_v1 : FVec Ideal S1365x256 .bf16) (V m c main_arg2 : FVec Ideal S256 .f32)
      (V m c main_v3 : FVec Ideal S256x1024 .bf16) (V m c main_arg4 : FVec Ideal S1024 .f32) j
    = result m c (((cfg0.win 5).blk t).view.emb j)
  have hj1 : (j 1).val < 1024 := (j 1).isLt
  exact head_block (φ₁ := .bf16) (φ₂ := .bf16) _ _ _ _ _ (iblk m c 0 t) t.val (fun y z h0 h2 => block0_apply m c t y z h0 h2) j
    (((cfg0.win 5).blk t).view.emb j)
    (by show win0_5.index t (0 : Fin 2) * 1024 + 1 * (j 0).val = t.val * 1024 + (j 0).val; omega)
    (by show win0_5.index t (1 : Fin 2) * 1024 + 1 * (j 1).val = (j 1).val; omega)

/-- An index of the output is in point `t`'s block iff each coordinate is in the block's range on its axis. -/
theorem mem_block (t : Fin cfg0.N) (i : S32768x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v4).slice (win0_5.rect t)).set ↔ _
  rw [View.set_slice_whole, Rect.mem_set_unit]
  exact Iff.rfl

/-- Row `r` of the output is in the block of point `r / 1024`: the 32 blocks cover the output. -/
theorem cover (i : S32768x1024.Idx) :
    ∃ t : Fin cfg0.N, (cfg0.win 5).flush t = true ∧ i ∈ ((cfg0.win 5).blk t).view.set := by
  have hi0 : (i 0).val < 32768 := (i 0).isLt
  have hi1 : (i 1).val < 1024 := (i 1).isLt
  have hN : grid0.N = 32 := N_0
  have ht : (i 0).val / 1024 < cfg0.N := by show (i 0).val / 1024 < grid0.N; omega
  obtain ⟨_, _, _, _, _, _, _, _, _, e0, e1⟩ := index_facts ⟨(i 0).val / 1024, ht⟩
  refine ⟨⟨(i 0).val / 1024, ht⟩, flush0_5 _, ?_⟩
  rw [mem_block]
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, ht⟩ (1 : Fin 2) * 1024 ≤ (i 1).val ∧ (i 1).val < win0_5.index ⟨(i 0).val / 1024, ht⟩ (1 : Fin 2) * 1024 + 1024
    rw [e1]; omega

/-- THE OUTPUT ARRAY after the region: the head's output on the whole input. -/
theorem final (c : Dev nD) : (dats m 0 c).arrAt 5 cfg0.N = result m c :=
  (dats m 0 c).arrAt_eq_of_cover 5 (result m c) (fun t _ => flushed_eq m c t) cover

end Cert.KernelIdeal.Arr

end
-- ==== Proof.KernelRun.lean ====
/-
  The idealized kernel's run, with both results named.

  Before the region the host transposes each weight matrix and rounds it to bf16 (on the extended reals the rounding
  is the identity); the region leaves the head's output on the whole input in its output array (`Arr.final`); after the
  region the host puts a unit axis back into that array and squeezes the input's unit axis away. So the first result is
  the head's output, on the launch contents, with the weights transposed, seen as `[32768, 1, 1024]`; the second is the
  input seen as `[32768, 1024]`; the five arguments end as launched.
-/
import proofs.«126937_j8933531976323_1_alg».proof.Proof.KernelArray
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The head's output on the launch contents, the two weight matrices transposed. -/
def fund (c : Dev nD) : FVec Ideal S32768x1024 .f32 :=
  Cert.Head.head (φ₁ := .f32) (φ₂ := .f32) ((m ((c : Thread nD τ).loc main_arg0)) : FVec Ideal S32768x1x1024 .f32)
    (transpose S1365x256 [1, 0] ((m ((c : Thread nD τ).loc main_arg1)) : FVec Ideal S256x1365 .f32) transposes_S256x1365_S1365x256_1_0)
    ((m ((c : Thread nD τ).loc main_arg2)) : FVec Ideal S256 .f32)
    (transpose S256x1024 [1, 0] ((m ((c : Thread nD τ).loc main_arg3)) : FVec Ideal S1024x256 .f32) transposes_S1024x256_S256x1024_1_0)
    ((m ((c : Thread nD τ).loc main_arg4)) : FVec Ideal S1024 .f32)

/-- The region finds the first weight matrix transposed and rounded. -/
theorem V_main_v1 (c : Dev nD) : (V m c main_v1 : FVec Ideal S1365x256 .bf16)
    = truncf (F := Ideal) .bf16 (transpose S1365x256 [1, 0] ((m ((c : Thread nD τ).loc main_arg1)) : FVec Ideal S256x1365 .f32) transposes_S256x1365_S1365x256_1_0) bitsLt_bf16_f32 := by
  show StableHlo.after hostOps0 (fun b => m (c, b)) (Proc.devRef .tc main_v1) = _
  after_results

/-- The region finds the second weight matrix transposed and rounded. -/
theorem V_main_v3 (c : Dev nD) : (V m c main_v3 : FVec Ideal S256x1024 .bf16)
    = truncf (F := Ideal) .bf16 (transpose S256x1024 [1, 0] ((m ((c : Thread nD τ).loc main_arg3)) : FVec Ideal S1024x256 .f32) transposes_S1024x256_S256x1024_1_0) bitsLt_bf16_f32 := by
  show StableHlo.after hostOps0 (fun b => m (c, b)) (Proc.devRef .tc main_v3) = _
  after_results

/-- The output array's function of what the region finds is the head's output on the launch contents. -/
theorem result_eq (c : Dev nD) : Arr.result m c = fund m c := by
  unfold Arr.result fund
  rw [V_main_v1, V_main_v3, V_main_arg0, V_main_arg2, V_main_arg4]
  exact Cert.Head.head_weights_format _ _ _ _ _ _ _

/-- After the host's last lines the first result is the output array with a unit axis put back. -/
theorem tail_main_v5 (c : Dev nD) :
    Pipeline.afterTail₀ cfgs (dats m) 0 (V0 m) [hostOps1] c main_v5
      = broadcastInDim (s := S32768x1024) S32768x1x1024 (![0, 2] : Fin 2 → Fin 3) bcast_S32768x1024_S32768x1x1024_0_2 (fund m c) := by
  unfold Pipeline.afterTail₀
  show StableHlo.after hostOps1 _ (Proc.devRef .tc main_v5) = _
  after_results
  refine congrArg (broadcastInDim (s := S32768x1024) S32768x1x1024 (![0, 2] : Fin 2 → Fin 3) bcast_S32768x1024_S32768x1x1024_0_2) ?_
  exact (Pipeline.withArrays_arr spec0 launch0.win.arr_inj c _ _ 5).trans ((Arr.final m c).trans (result_eq m c))

/-- After the host's last lines the second result is the input with its unit axis squeezed away. -/
theorem tail_main_v6 (c : Dev nD) :
    Pipeline.afterTail₀ cfgs (dats m) 0 (V0 m) [hostOps1] c main_v6
      = shapeCast S32768x1024 ((m ((c : Thread nD τ).loc main_arg0)) : FVec Ideal S32768x1x1024 .f32) shapeCasts_S32768x1x1024_S32768x1024 := by
  unfold Pipeline.afterTail₀
  show StableHlo.after hostOps1 _ (Proc.devRef .tc main_v6) = _
  after_results
  refine congrArg (fun y => shapeCast S32768x1024 y shapeCasts_S32768x1x1024_S32768x1024) ?_
  exact (Pipeline.withArrays_arr spec0 launch0.win.arr_inj c _ _ 0).trans
    (((dats m 0 c).arrAt_in 0 rfl _).trans ((A_eq m c 0).trans (V_main_arg0 m c)))

/-- THE RUN: every weakly fair execution terminates with the first result at the head's output seen as
    `[32768, 1, 1024]`, the second at the squeezed input, and the arguments as launched. -/
theorem run : θ_run defs (onTc (τ := τ) (main (F := Ideal))) ⟨m, fun _ => 0, ρ⟩ fun r => ∀ c : Dev nD,
      r.2.mem ((c.tc : Thread nD τ).loc main_v5) = broadcastInDim (s := S32768x1024) S32768x1x1024 (![0, 2] : Fin 2 → Fin 3) bcast_S32768x1024_S32768x1x1024_0_2 (fund m c)
      ∧ r.2.mem ((c.tc : Thread nD τ).loc main_v6) = shapeCast S32768x1024 ((m ((c : Thread nD τ).loc main_arg0)) : FVec Ideal S32768x1x1024 .f32) shapeCasts_S32768x1x1024_S32768x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail_main_v5 m c),
      ((h c).2 main_v6 (Pipeline.mem_restRefs_of main_v6 (by decide) (by decide))).trans (tail_main_v6 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.Run

end
-- ==== Proof.ReferenceValue.lean ====
/-
  What the reference computes: the head's output on all 32768 rows, with the weights transposed.

  The reference's stages up to the concatenation are the host's spelling of the pooled features of the whole input; the
  rest is two dense layers with the rectifier between them, each layer a contraction with the transposed weight matrix
  plus the bias broadcast over the rows, the rectifier the maximum with a scalar zero broadcast to the shape.
-/
import proofs.«126937_j8933531976323_1_alg».proof.Proof.Gen.ReferenceIdeal.Read
import proofs.«126937_j8933531976323_1_alg».proof.Proof.Head

noncomputable section

namespace Cert.ReferenceIdeal.RefValue

open Cert.ReferenceIdeal Cert.ReferenceIdeal.Gen Cert.ReferenceIdeal.Read Idealize.ShloMosaic Idealize.ShloMosaic.ValueIdx

/-- The reference's stages up to the concatenation are the host's spelling of the pooled features of the whole input. -/
private theorem features_eq (x0 : FVec Ideal S32768x1x1024 .f32) :
    val_main_v14 (F := Ideal) x0 = PooledFeatures.pooled x0 := by
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
    val_main_cst_2
  exact PooledFeatures.host_spelling (R := 32768) x0 shapeCasts_S32768x1x1024_S32768x1024
    shapeCasts_S32768x1024_S32768x512x2 slices_S32768x1024_S32768x1023_0_0 shapeCasts_S32768x1023_S32768x341x3
    slices_S32768x1024_S32768x341_0_0 slices_S32768x512_S32768x341_0_0 concatenates_S32768x1024_S32768x341_S32768x1365_d1
    reducesTo_S32768x512x2_S32768x512_d2 (by decide) reducesTo_S32768x341x3_S32768x341_d2 (by decide) h_S_
    bcast_S_S32768x512 bcast_S_S32768x341

/-- The reference's first layer on any `[32768, 1365]` array `f`: the contraction with the transposed weight plus the
    bias broadcast over the rows is `f · w1ᵀ + b1`. -/
private theorem layer1_eq (f : FVec Ideal S32768x1365 .f32) (x1 : FVec Ideal S256x1365 .f32) (x2 : FVec Ideal S256 .f32) :
    addf (Host.dotGeneral (φ₂ := .f32) dot_S32768x1365_S1365x256_S32768x256_1_0_0_1_n_n none f (val_main_v15 (F := Ideal) x1))
        (val_main_v18 (F := Ideal) x2)
      = DenseLayer.affine f (transpose S1365x256 [1, 0] x1 transposes_S256x1365_S1365x256_1_0) x2 := by
  unfold val_main_v15 val_main_v18 val_main_v17
  exact DenseLayer.host_affine dot_S32768x1365_S1365x256_S32768x256_1_0_0_1_n_n rfl rfl lhs_main_v16_0 lhs_main_v16_1
    rhs_main_v16_0 rhs_main_v16_1 none f (transpose S1365x256 [1, 0] x1 transposes_S256x1365_S1365x256_1_0) x2
    bcast_S256_S1x256_1 bcast_S1x256_S32768x256_0_1

/-- The reference's second layer on any `[32768, 256]` array `g`, in the same way, is `g · w2ᵀ + b2`. -/
private theorem layer2_eq (g : FVec Ideal S32768x256 .f32) (x3 : FVec Ideal S1024x256 .f32) (x4 : FVec Ideal S1024 .f32) :
    addf (Host.dotGeneral (φ₂ := .f32) dot_S32768x256_S256x1024_S32768x1024_1_0_0_1_n_n none g (val_main_v21 (F := Ideal) x3))
        (val_main_v24 (F := Ideal) x4)
      = DenseLayer.affine g (transpose S256x1024 [1, 0] x3 transposes_S1024x256_S256x1024_1_0) x4 := by
  unfold val_main_v21 val_main_v24 val_main_v23
  exact DenseLayer.host_affine dot_S32768x256_S256x1024_S32768x1024_1_0_0_1_n_n rfl rfl lhs_main_v22_0 lhs_main_v22_1
    rhs_main_v22_0 rhs_main_v22_1 none g (transpose S256x1024 [1, 0] x3 transposes_S1024x256_S256x1024_1_0) x4
    bcast_S1024_S1x1024_1 bcast_S1x1024_S32768x1024_0_1

/-- The reference's rectifier on any `[32768, 256]` array: the maximum with the scalar zero broadcast to the shape. -/
private theorem rectifier_eq (y : FVec Ideal S32768x256 .f32) :
    maximumf y (val_main_call0_v0 (F := Ideal)) = DenseLayer.rectify y := by
  unfold val_main_call0_v0 val_main_call0_cst
  exact DenseLayer.host_rectify y bcast_S_S32768x256

/-- The reference's last stage before the unit axis is put back is the head's output on the whole input, the two weight
    matrices transposed. -/
theorem stage_eq (x0 : FVec Ideal S32768x1x1024 .f32) (x1 : FVec Ideal S256x1365 .f32) (x2 : FVec Ideal S256 .f32)
    (x3 : FVec Ideal S1024x256 .f32) (x4 : FVec Ideal S1024 .f32) :
    val_main_v25 (F := Ideal) x0 x1 x2 x3 x4
      = Cert.Head.head x0 (transpose S1365x256 [1, 0] x1 transposes_S256x1365_S1365x256_1_0) x2
          (transpose S256x1024 [1, 0] x3 transposes_S1024x256_S256x1024_1_0) x4 := by
  unfold val_main_v25 val_main_v22 val_main_v20 val_main_v19 val_main_v16 Cert.Head.head
  -- features, first layer, rectifier, second layer
  exact (layer2_eq _ x3 x4).trans
    (congrArg (fun g => DenseLayer.affine g (transpose S256x1024 [1, 0] x3 transposes_S1024x256_S256x1024_1_0) x4)
      ((rectifier_eq _).trans
        (congrArg DenseLayer.rectify
          ((layer1_eq _ x1 x2).trans
            (congrArg (fun f => DenseLayer.affine f (transpose S1365x256 [1, 0] x1 transposes_S256x1365_S1365x256_1_0) x2)
              (features_eq x0))))))

end Cert.ReferenceIdeal.RefValue

end
-- ==== Proof.lean ====
/-
  A multi-scale pooling head, computed by a kernel on blocks of 1024 rows, against its plain reference.

  For an input `x : [32768, 1, 1024]`, weights `W1 : [256, 1365]`, `W2 : [1024, 256]` and biases `b1`, `b2`, both programs
  return `(fund, h)` with `h` the input without its unit axis and
      fund = max(feat · W1ᵀ + b1, 0) · W2ᵀ + b2,      feat = [h, (h[:, :341] + s2[:, :341]) + s3],
  where `s2` holds the means of the consecutive pairs of each row of `h` and `s3` the means of the consecutive triples of
  its first 1023 entries, a mean being the group's sum divided by the f32 word of 2 or of 3 (the same words in both
  programs). The kernel transposes the weights on the host and rounds them, the features and the hidden layer to bf16 on
  the way into its two matrix products; on the extended reals every rounding is the identity, a matrix product into a
  zero accumulator and a host dot product are the same sum, and a lane reduction and a host reduction are the same sum.

  The kernel's side: what a grid point stores is the head's output on its block of rows (`Block.payload_eq`), a row of
  the output reads one row of the input (`Head.head_row`), the 32 blocks cover the output (`Arr.final`), and the host's
  last two lines put the unit axis back and squeeze the input (`Run.run`). The reference's side: its run read back
  (the generated run module), its last stage the head's output on all rows (`RefValue.stage_eq`). No law used here needs
  the inputs finite: the precondition is never opened. The ideal pass rewrote nothing, so `preserves` is `True`.
-/
import proofs.«126937_j8933531976323_1_alg».proof.Defs
import proofs.«126937_j8933531976323_1_alg».proof.Proof.Gen.Kernel
import proofs.«126937_j8933531976323_1_alg».proof.Proof.Gen.Kernel.Frame
import proofs.«126937_j8933531976323_1_alg».proof.Proof.Gen.KernelIdeal
import proofs.«126937_j8933531976323_1_alg».proof.Proof.Gen.KernelIdeal.Frame
import proofs.«126937_j8933531976323_1_alg».proof.Proof.Gen.ReferenceIdeal
import proofs.«126937_j8933531976323_1_alg».proof.Proof.Gen.Pre_finite_inputs
import proofs.«126937_j8933531976323_1_alg».proof.Proof.Gen.ReferenceIdeal.Run
import proofs.«126937_j8933531976323_1_alg».proof.Proof.Gen.ReferenceIdeal.Read
import proofs.«126937_j8933531976323_1_alg».proof.Proof.KernelRun
import proofs.«126937_j8933531976323_1_alg».proof.Proof.ReferenceValue
import Idealize.ShloMosaic.Adequacy
import Idealize.ShloMosaic.Init

noncomputable section

namespace Cert.Proof

open Idealize.ShloMosaic Idealize.SL.Sem

/-- The word-level kernel terminates, faults nowhere and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel. -/
theorem preserves : Cert.preserves_Kernel_KernelIdeal := trivial

/-- From memories that agree on the five arguments both programs end with the head's output on the arguments, seen as
    `[32768, 1, 1024]`, and with the squeezed input. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4⟩ := hagree c
    rw [a0, a1, a2, a3, a4, Cert.ReferenceIdeal.Read.val_main_v26_eq]
    unfold Cert.ReferenceIdeal.Read.val_main_v26
    rw [Cert.ReferenceIdeal.RefValue.stage_eq]
    unfold Cert.KernelIdeal.Run.fund
    rfl
  · rw [(hagree c).1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
